-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S16384x32 : Shape := ⟨2, ![16384, 32]⟩
abbrev S512x1024 : Shape := ⟨2, ![512, 1024]⟩
abbrev S1024 : Shape := ⟨1, ![1024]⟩
abbrev S1024x1024 : Shape := ⟨2, ![1024, 1024]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg5 : FVec F S1024 .f32) (main_arg6 : FVec F S1024x1024 .f32) (main_arg7 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S100000x512 .f32) (main_arg1 : IVec S16384x32 32) (main_arg2 : FVec F S512x1024 .f32) (main_arg3 : FVec F S1024 .f32) (main_arg4 : FVec F S1024x1024 .f32) (main_arg5 : FVec F S1024 .f32) (main_arg6 : FVec F S1024x1024 .f32) (main_arg7 : FVec F S1024 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x1024 .f32 := Host.absf main_arg2
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_v13 main_v16
-- ==== Kernel.lean ====
abbrev S100000x512 : Shape := ⟨2, ![100000, 512]⟩
abbrev S16384x32 : Shape := ⟨2, ![16384, 32]⟩
abbrev S512x1024 : Shape := ⟨2, ![512, 1024]⟩
abbrev S1024 : Shape := ⟨1, ![1024]⟩
abbrev S1024x1024 : Shape := ⟨2, ![1024, 1024]⟩
abbrev S_ : Shape := ⟨0, ![]⟩
abbrev S16384x32x1 : Shape := ⟨3, ![16384, 32, 1]⟩
abbrev S16384x32x512 : Shape := ⟨3, ![16384, 32, 512]⟩
abbrev S16384x512 : Shape := ⟨2, ![16384, 512]⟩
abbrev S1x1024 : Shape := ⟨2, ![1, 1024]⟩
abbrev S16384x1024 : Shape := ⟨2, ![16384, 1024]⟩
abbrev S512x512 : Shape := ⟨2, ![512, 512]⟩

abbrev nBuf : Space → Nat
  | .hbm => 27
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S16384x32, .i32⟩
  | .hbm, ⟨2, _⟩ => ⟨S512x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S_, .i32⟩
  | .hbm, ⟨9, _⟩ => ⟨S16384x32, .i32⟩
  | .hbm, ⟨10, _⟩ => ⟨S16384x32, .i1⟩
  | .hbm, ⟨11, _⟩ => ⟨S_, .i32⟩
  | .hbm, ⟨12, _⟩ => ⟨S16384x32, .i32⟩
  | .hbm, ⟨13, _⟩ => ⟨S16384x32, .i32⟩
  | .hbm, ⟨14, _⟩ => ⟨S16384x32, .i32⟩
  | .hbm, ⟨15, _⟩ => ⟨S16384x32x1, .i32⟩
  | .hbm, ⟨16, _⟩ => ⟨S16384x32x512, .f32⟩
  | .hbm, ⟨17, _⟩ => ⟨S_, .f32⟩
  | .hbm, ⟨18, _⟩ => ⟨S16384x512, .f32⟩
  | .hbm, ⟨19, _⟩ => ⟨S16384x512, .bf16⟩
  | .hbm, ⟨20, _⟩ => ⟨S512x1024, .bf16⟩
  | .hbm, ⟨21, _⟩ => ⟨S1024x1024, .bf16⟩
  | .hbm, ⟨22, _⟩ => ⟨S1024x1024, .bf16⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  reducesTo_S16384x32x512_S16384x512_d1 : S16384x32x512.ReducesTo [1] S16384x512
  h_S_ : 0 < S_.numel
  bitsLt_bf16_f32 : FTy.bits .bf16 < FTy.bits .f32
  shapeCasts_S1024_S1x1024 : S1024.ShapeCasts S1x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  gather_S100000x512_S16384x32x1_S16384x32x512_2_0_n_n_0_2_1512_wf : GatherDims.WF S100000x512 S16384x32x1 S16384x32x512 [2] [0] [] [0] [] 2 ![1, 512]
  dot_S512x512_S512x1024_S512x1024_1_0_0_1_n_n_wf : DotDims.WF S512x512 S512x1024 S512x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .bf16 = 32 ∨ (Rect.block (s := S16384x512) S512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S16384x1024.size a
  hwx0_7 : ∀ i : grid0.Coords, EltTy.bits .f32 = 32 ∨ (Rect.block (s := S16384x1024) S512x1024.size (cc0_transform_7 i) (hinb0_7 i)).WholeWords (EltTy.packing .f32)

variable [Facts₀]

def gather_S100000x512_S16384x32x1_S16384x32x512_2_0_n_n_0_2_1512 : GatherDims S100000x512 S16384x32x1 S16384x32x512 where
  offsetDims := [2]
  collapsedSliceDims := [0]
  operandBatchingDims := []
  startIndicesBatchingDims := []
  startIndexMap := [0]
  indexVectorDim := 2
  sliceSizes := ![1, 512]
  wf := gather_S100000x512_S16384x32x1_S16384x32x512_2_0_n_n_0_2_1512_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v8) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x512 : Shape := ⟨2, ![100000, 512]⟩
abbrev S16384x32 : Shape := ⟨2, ![16384, 32]⟩
abbrev S512x1024 : Shape := ⟨2, ![512, 1024]⟩
abbrev S1024 : Shape := ⟨1, ![1024]⟩
abbrev S1024x1024 : Shape := ⟨2, ![1024, 1024]⟩
abbrev S_ : Shape := ⟨0, ![]⟩
abbrev S16384x32x1 : Shape := ⟨3, ![16384, 32, 1]⟩
abbrev S16384x32x512 : Shape := ⟨3, ![16384, 32, 512]⟩
abbrev S16384x512 : Shape := ⟨2, ![16384, 512]⟩
abbrev S16384x1024 : Shape := ⟨2, ![16384, 1024]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S16384x32, .i32⟩
  | .hbm, ⟨2, _⟩ => ⟨S512x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S_, .i32⟩
  | .hbm, ⟨9, _⟩ => ⟨S16384x32, .i32⟩
  | .hbm, ⟨10, _⟩ => ⟨S16384x32, .i1⟩
  | .hbm, ⟨11, _⟩ => ⟨S_, .i32⟩
  | .hbm, ⟨12, _⟩ => ⟨S16384x32, .i32⟩
  | .hbm, ⟨13, _⟩ => ⟨S16384x32, .i32⟩
  | .hbm, ⟨14, _⟩ => ⟨S16384x32, .i32⟩
  | .hbm, ⟨15, _⟩ => ⟨S16384x32x1, .i32⟩
  | .hbm, ⟨16, _⟩ => ⟨S16384x32x512, .f32⟩
  | .hbm, ⟨17, _⟩ => ⟨S_, .f32⟩
  | .hbm, ⟨18, _⟩ => ⟨S16384x512, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call1_cst : Ref sig .tc := ⟨.hbm, 30, rfl⟩
abbrev main_call1_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call2_cst : Ref sig .tc := ⟨.hbm, 37, rfl⟩
abbrev main_call2_v0 : Ref sig .tc := ⟨.hbm, 38, rfl⟩
abbrev main_v22 : Ref sig .tc := ⟨.hbm, 39, rfl⟩

abbrev nD : Nat := 1
abbrev τ : Topo := Topo.v7x

variable {F : FTy → Type} [FloatOps F]

class Facts₀ : Prop where
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  reducesTo_S16384x32x512_S16384x512_d1 : S16384x32x512.ReducesTo [1] S16384x512
  h_S_ : 0 < S_.numel
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  gather_S100000x512_S16384x32x1_S16384x32x512_2_0_n_n_0_2_1512_wf : GatherDims.WF S100000x512 S16384x32x1 S16384x32x512 [2] [0] [] [0] [] 2 ![1, 512]
  dot_S16384x512_S512x1024_S16384x1024_1_0_0_1_n_n_wf : DotDims.WF S16384x512 S512x1024 S16384x1024 [1] [0] [0] [1] [] []
  dot_S16384x1024_S1024x1024_S16384x1024_1_0_0_1_n_n_wf : DotDims.WF S16384x1024 S1024x1024 S16384x1024 [1] [0] [0] [1] [] []

variable [Facts₀]

def gather_S100000x512_S16384x32x1_S16384x32x512_2_0_n_n_0_2_1512 : GatherDims S100000x512 S16384x32x1 S16384x32x512 where
  offsetDims := [2]
  collapsedSliceDims := [0]
  operandBatchingDims := []
  startIndicesBatchingDims := []
  startIndexMap := [0]
  indexVectorDim := 2
  sliceSizes := ![1, 512]
  wf := gather_S100000x512_S16384x32x1_S16384x32x512_2_0_n_n_0_2_1512_wf
def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.LibMatmulRowsByCols.lean ====
/-
  A matrix product into the zero accumulator, read at an entry.

  On the extended reals a `tpu.matmul` of an `[M, K]` left operand and a `[K, N]` right operand (the contraction on the
  left's second axis and the right's first, no batch axis), accumulated into the zero splat, is at entry `(p, q)` the
  plain sum `∑ₖ l(p, k) · r(k, q)`: no rounding, no order of accumulation. The dimension record is kept abstract; what
  is asked of it is that it contracts one axis of extent `K` and reads its operands at `(p, k)` and `(k, q)`, four
  facts a concrete record gives by unfolding. Imports only the library.
-/
import Idealize.ShloMosaic.PureOps.Ideal.Laws
import Idealize.ShloMosaic.Lib.ValueIdx

namespace Idealize.ShloMosaic.MatmulRowsByCols

open Idealize.ShloMosaic Idealize.ShloMosaic.ValueIdx

/-- `matmul D prec l r 0` at `(p, q)` is `∑ k, l (p, k) * r (k, q)`. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    matmul D prec l r (constant (F := Ideal) ⟨2, ![M, N]⟩ .f32 0x00000000#32) (ix2 p q)
      = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulRowsByCols
-- ==== Proof.LibDenseRelu.lean ====
/-
  A dense layer followed by a rectifier, on the extended reals.

  For an `[R, K]` input `x`, a `[K, N]` weight `w` and a bias vector `b` of length `N`, entry `(p, q)` of
  `relu (x · w + b)` is `max (∑ₖ x(p, k) · w(k, q) + b(q)) 0`. The entry reads only ROW `p` of the input, so the
  layer of a selection of rows of `x` is the same selection of rows of the layer of `x` — and likewise through any
  chain of such layers. This is what lets a perceptron evaluated on one tile of rows at a time be compared with the
  perceptron of the whole batch: no law of arithmetic is needed, only that both sums run over the same terms.
  Imports only the library.
-/
import Idealize.ShloMosaic.PureOps.Ideal
import Idealize.ShloMosaic.Lib.ValueIdx

namespace Idealize.ShloMosaic.DenseRelu

open Idealize.ShloMosaic Idealize.ShloMosaic.ValueIdx

variable {R R' K N : ℕ}

/-- Entry `(p, q)` of `relu (x · w + b)`: the row `p` of `x` against the column `q` of `w`, plus `b(q)`, cut at zero. -/
noncomputable def entry (x : (⟨2, ![R, K]⟩ : Shape).Idx → EReal) (w : (⟨2, ![K, N]⟩ : Shape).Idx → EReal)
    (b : (⟨1, ![N]⟩ : Shape).Idx → EReal) (p : Fin R) (q : Fin N) : EReal :=
  max ((∑ k : Fin K, x (ix2 p k) * w (ix2 k q)) + b (ix1 q)) 0

/-- The layer `relu (x · w + b)` as an `[R, N]` array. -/
noncomputable def layer (x : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => entry x w b (i 0) (i 1)

/-- The layer read at coordinates. -/
theorem layer_ix2 (x : (⟨2, ![R, K]⟩ : Shape).Idx → EReal) (w : (⟨2, ![K, N]⟩ : Shape).Idx → EReal)
    (b : (⟨1, ![N]⟩ : Shape).Idx → EReal) (p : Fin R) (q : Fin N) : layer x w b (ix2 p q) = entry x w b p q := rfl

/-- An entry depends on the input through one row only: two inputs (of possibly different heights) that agree on
    row `p` of the one and row `p'` of the other give the same entry there. -/
theorem entry_congr_row (x : (⟨2, ![R, K]⟩ : Shape).Idx → EReal) (x' : (⟨2, ![R', K]⟩ : Shape).Idx → EReal)
    (w : (⟨2, ![K, N]⟩ : Shape).Idx → EReal) (b : (⟨1, ![N]⟩ : Shape).Idx → EReal) (p : Fin R) (p' : Fin R') (q : Fin N)
    (h : ∀ k : Fin K, x (ix2 p k) = x' (ix2 p' k)) : entry x w b p q = entry x' w b p' q := by
  unfold entry
  rw [Finset.sum_congr rfl fun k _ => congrArg (· * w (ix2 k q)) (h k)]

/-- Rows selected before or after the layer: if `x'` holds the rows `ρ` of `x`, the layer of `x'` holds the rows `ρ`
    of the layer of `x`. -/
theorem layer_rows (ρ : Fin R' → Fin R) (x : (⟨2, ![R, K]⟩ : Shape).Idx → EReal) (x' : (⟨2, ![R', K]⟩ : Shape).Idx → EReal)
    (w : (⟨2, ![K, N]⟩ : Shape).Idx → EReal) (b : (⟨1, ![N]⟩ : Shape).Idx → EReal)
    (h : ∀ (p : Fin R') (k : Fin K), x' (ix2 p k) = x (ix2 (ρ p) k)) (p : Fin R') (q : Fin N) :
    layer x' w b (ix2 p q) = layer x w b (ix2 (ρ p) q) :=
  entry_congr_row x' x w b p (ρ p) q (h p)

end Idealize.ShloMosaic.DenseRelu
-- ==== Proof.KernelBody.lean ====
/-
  What the kernel's body computes on one tile of 512 routes.

  The body multiplies the tile (512 × 512) by the first weight matrix, adds the first bias row and cuts at zero; does
  the same with the second and third weights (1024 × 1024) and biases; and stores the result (512 × 1024). Each matrix
  product is accumulated into a zero splat, the roundings to the narrower format between the layers are the identity on
  the extended reals, and the bias arrives as a `[1, 1024]` row broadcast down the tile. So entry `(p, q)` of what is
  stored is the three-layer perceptron of the tile, read at `(p, q)`.
-/
import proofs.«145293_j71940702208695_1_alg».proof.Proof.Gen.KernelIdeal.Skeleton
import proofs.«145293_j71940702208695_1_alg».proof.Proof.LibMatmulRowsByCols
import proofs.«145293_j71940702208695_1_alg».proof.Proof.LibDenseRelu
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Idealize.ShloMosaic.DenseRelu

/-- A `[1, N]` row read as a vector of length `N`. -/
def rowVec {N : ℕ} (c : (⟨2, ![1, N]⟩ : Shape).Idx → EReal) : (⟨1, ![N]⟩ : Shape).Idx → EReal :=
  fun i => c (ix2 (0 : Fin 1) (i 0))

theorem rowVec_ix1 {N : ℕ} (c : (⟨2, ![1, N]⟩ : Shape).Idx → EReal) (q : Fin N) : rowVec c (ix1 q) = c (ix2 (0 : Fin 1) q) := rfl

/-- One layer as the body spells it: a matrix product into the zero accumulator, plus the bias row broadcast down the
    rows, maximised against the zero splat — read at `(p, q)` it is the dense-rectifier entry. -/
theorem matmul_bias_relu_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (A : FVec Ideal ⟨2, ![M, K]⟩ φ₁) (B : FVec Ideal ⟨2, ![K, N]⟩ φ₂) (c : FVec Ideal ⟨2, ![1, N]⟩ .f32)
    (hb : (⟨2, ![1, N]⟩ : Shape).Broadcasts ⟨2, ![M, N]⟩) (p : Fin M) (q : Fin N) :
    maximumf (addf (matmul D none A B (constant (F := Ideal) ⟨2, ![M, N]⟩ .f32 0x00000000#32)) (broadcastTo ⟨2, ![M, N]⟩ c hb))
        (broadcast ⟨2, ![M, N]⟩ (Scalar.ofBits (F := Ideal) .f32 0x00000000#32)) (ix2 p q)
      = entry A B (rowVec c) p q := by
  show max (matmul D none A B (constant (F := Ideal) ⟨2, ![M, N]⟩ .f32 0x00000000#32) (ix2 p q) + broadcastTo ⟨2, ![M, N]⟩ c hb (ix2 p q))
      (Ideal.ofBits .f32 0x00000000#32) = _
  rw [MatmulRowsByCols.matmul_zero_apply D hr hs hl0 hl1 hr0 hr1, broadcastTo_1b_ab_apply, Ideal.ofBits_zero_f32]
  rfl

/-! ## The two dimension records of the body's products: which operand entries an output entry reads -/

theorem d0_l0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem d0_r1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl
theorem d1_l0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem d1_r1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The first layer as the body spells it, at `(p, q)`. -/
theorem first_layer (A : FVec Ideal S512x512 .bf16) (B : FVec Ideal S512x1024 .bf16) (c : FVec Ideal S1x1024 .f32) (p : Fin 512) (q : Fin 1024) :
    maximumf (addf (matmul dot_S512x512_S512x1024_S512x1024_1_0_0_1_n_n none A B (constant (F := Ideal) S512x1024 .f32 0x00000000#32)) (broadcastTo S512x1024 c broadcasts_S1x1024_S512x1024))
        (broadcast S512x1024 (Scalar.ofBits (F := Ideal) .f32 0x00000000#32)) (ix2 p q)
      = entry A B (rowVec c) p q :=
  matmul_bias_relu_apply dot_S512x512_S512x1024_S512x1024_1_0_0_1_n_n rfl rfl d0_l0
    (fun i q => dot_S512x512_S512x1024_S512x1024_1_0_0_1_n_n.lhsIdx_val_of_single rfl i q)
    (fun i q => dot_S512x512_S512x1024_S512x1024_1_0_0_1_n_n.rhsIdx_val_of_single rfl i q) d0_r1 A B c _ p q

/-- A later layer as the body spells it, at `(p, q)`. -/
theorem later_layer (A : FVec Ideal S512x1024 .bf16) (B : FVec Ideal S1024x1024 .bf16) (c : FVec Ideal S1x1024 .f32) (p : Fin 512) (q : Fin 1024) :
    maximumf (addf (matmul dot_S512x1024_S1024x1024_S512x1024_1_0_0_1_n_n none A B (constant (F := Ideal) S512x1024 .f32 0x00000000#32)) (broadcastTo S512x1024 c broadcasts_S1x1024_S512x1024))
        (broadcast S512x1024 (Scalar.ofBits (F := Ideal) .f32 0x00000000#32)) (ix2 p q)
      = entry A B (rowVec c) p q :=
  matmul_bias_relu_apply dot_S512x1024_S1024x1024_S512x1024_1_0_0_1_n_n rfl rfl d1_l0
    (fun i q => dot_S512x1024_S1024x1024_S512x1024_1_0_0_1_n_n.lhsIdx_val_of_single rfl i q)
    (fun i q => dot_S512x1024_S1024x1024_S512x1024_1_0_0_1_n_n.rhsIdx_val_of_single rfl i q) d1_r1 A B c _ p q

/-- What the body stores, read at `(p, q)`: the three-layer perceptron of the tile `x0` with the weights `w0, w1, w2`
    and the bias rows `c0, c1, c2`. -/
theorem stored_apply (x0 : FVec Ideal S512x512 .bf16) (w0 : FVec Ideal S512x1024 .bf16) (c0 : FVec Ideal S1x1024 .f32)
    (w1 : FVec Ideal S1024x1024 .bf16) (c1 : FVec Ideal S1x1024 .f32) (w2 : FVec Ideal S1024x1024 .bf16) (c2 : FVec Ideal S1x1024 .f32)
    (p : Fin 512) (q : Fin 1024) :
    k0_pay1 (F := Ideal) x0 w0 c0 w1 c1 w2 c2 (ix2 p q)
      = entry (layer (layer x0 w0 (rowVec c0)) w1 (rowVec c1)) w2 (rowVec c2) p q := by
  unfold k0_pay1
  simp only [shapeCast_self]
  refine (later_layer _ _ _ p q).trans ?_
  refine entry_congr_row _ _ _ _ p p q fun k => ?_
  refine (later_layer _ _ _ p k).trans ?_
  refine entry_congr_row _ _ _ _ p p k fun k' => ?_
  exact first_layer _ _ _ p k'

/-- The same entry against the WHOLE batch: when row `p` of the tile is row `r` of the batch `X`, the tile's weights are
    the weights and its bias rows the biases, what the body stores at `(p, q)` is entry `(r, q)` of the perceptron of
    the batch — each layer's entry reads one row of the layer before it. -/
theorem tile_entry {R : ℕ} (X : (⟨2, ![R, 512]⟩ : Shape).Idx → EReal) (W0 : S512x1024.Idx → EReal) (b0 : S1024.Idx → EReal)
    (W1 : S1024x1024.Idx → EReal) (b1 : S1024.Idx → EReal) (W2 : S1024x1024.Idx → EReal) (b2 : S1024.Idx → EReal)
    (x0 : FVec Ideal S512x512 .bf16) (w0 : FVec Ideal S512x1024 .bf16) (c0 : FVec Ideal S1x1024 .f32)
    (w1 : FVec Ideal S1024x1024 .bf16) (c1 : FVec Ideal S1x1024 .f32) (w2 : FVec Ideal S1024x1024 .bf16) (c2 : FVec Ideal S1x1024 .f32)
    (p : Fin 512) (r : Fin R) (q : Fin 1024)
    (hx : ∀ k : Fin 512, x0 (ix2 p k) = X (ix2 r k)) (hw0 : w0 = W0) (hc0 : rowVec c0 = b0) (hw1 : w1 = W1) (hc1 : rowVec c1 = b1)
    (hw2 : w2 = W2) (hc2 : rowVec c2 = b2) :
    k0_pay1 (F := Ideal) x0 w0 c0 w1 c1 w2 c2 (ix2 p q) = layer (layer (layer X W0 b0) W1 b1) W2 b2 (ix2 r q) := by
  subst hw0 hc0 hw1 hc1 hw2 hc2
  refine (stored_apply x0 w0 c0 w1 c1 w2 c2 p q).trans ?_
  rw [layer_ix2]
  refine entry_congr_row _ _ _ _ p r q fun k => ?_
  rw [layer_ix2, layer_ix2]
  refine entry_congr_row _ _ _ _ p r k fun k' => ?_
  rw [layer_ix2, layer_ix2]
  exact entry_congr_row _ _ _ _ p r k' hx

end Cert.KernelIdeal.Body

end
-- ==== Proof.KernelValue.lean ====
/-
  From tiles to the whole result array.

  Before the kernel is launched the host program pools the route embeddings (each route's 32 rows gathered from the
  table, maximised position by position), narrows the pooled batch and the three weight matrices to the matrix unit's
  format (the identity on the extended reals) and views each bias vector as a `[1, 1024]` row. The kernel then visits
  32 grid points; point `t` reads rows `512 t … 512 t + 511` of the pooled batch, the whole of every weight and bias,
  and writes rows `512 t … 512 t + 511` of the result. By the row-locality of the dense-rectifier layer, what point `t`
  writes is those rows of the three-layer perceptron of the WHOLE pooled batch; the 32 row blocks tile the result, so
  the result array ends holding that perceptron.
-/
import proofs.«145293_j71940702208695_1_alg».proof.Proof.Gen.KernelIdeal.Value
import proofs.«145293_j71940702208695_1_alg».proof.Proof.KernelBody
import Idealize.ShloMosaic.Lib.StableHlo.Run
import Idealize.ShloMosaic.Lib.ValueLayout
import Idealize.ShloMosaic.Lib.Pipeline.Value

noncomputable section

namespace Cert.KernelIdeal.Whole

open Cert.KernelIdeal Cert.KernelIdeal.Gen Cert.KernelIdeal.Value Cert.KernelIdeal.Body
open Idealize.ShloMosaic Idealize.ShloMosaic.TcCoe Idealize.SL.Sem Idealize.ShloMosaic.StableHlo
open Idealize.ShloMosaic.ValueIdx Idealize.ShloMosaic.DenseRelu
open Idealize.ShloMosaic.Pipeline (Dat)

variable (m : (ℓ : Loc nD τ sig) → Buf (Elt Ideal) ℓ) (ρ : Dev nD → PrngReg)

/-- The pooled route embeddings, as the host computes them from the embedding table `a0` and the routes' node
    indices `a1`: a negative index is wrapped by the table's height, each route's rows are gathered, and the rows of a
    route are maximised position by position. Both programs apply this same chain; it is never opened. -/
def pooled (a0 : (⟨S100000x512, .f32⟩ : BufTy).Contents (Elt Ideal)) (a1 : (⟨S16384x32, .i32⟩ : BufTy).Contents (Elt Ideal)) :
    (⟨S16384x512, .f32⟩ : BufTy).Contents (Elt Ideal) :=
  Host.reduce (FloatOps.maximumf (F := Ideal) (φ := .f32))
    (Host.gather gather_S100000x512_S16384x32x1_S16384x32x512_2_0_n_n_0_2_1512 a0
      (broadcastInDim S16384x32x1 ![0, 1] bcast_S16384x32_S16384x32x1_0_1
        (select (cmpi .slt a1 (broadcastInDim S16384x32 ![] bcast_S_S16384x32 (constantI S_ 32 0#32)))
          (addi a1 (broadcastInDim S16384x32 ![] bcast_S_S16384x32 (constantI S_ 32 100000#32))) a1)))
    (constant (F := Ideal) S_ .f32 0xFF800000#32) reducesTo_S16384x32x512_S16384x512_d1 h_S_

/-- The result: the three-layer perceptron of the pooled batch with the argument weights and biases. -/
def out (c : Dev nD) : S16384x1024.Idx → EReal :=
  layer (layer (layer (pooled (m ((c : Thread nD τ).loc main_arg0)) (m ((c : Thread nD τ).loc main_arg1)) : S16384x512.Idx → EReal)
    ((m ((c : Thread nD τ).loc main_arg2)) : S512x1024.Idx → EReal) ((m ((c : Thread nD τ).loc main_arg3)) : S1024.Idx → EReal))
    ((m ((c : Thread nD τ).loc main_arg4)) : S1024x1024.Idx → EReal) ((m ((c : Thread nD τ).loc main_arg5)) : S1024.Idx → EReal))
    ((m ((c : Thread nD τ).loc main_arg6)) : S1024x1024.Idx → EReal) ((m ((c : Thread nD τ).loc main_arg7)) : S1024.Idx → EReal)

/-! ## The arrays the kernel's windows are cut from, as the host leaves them -/

/-- Narrowing to a smaller float format is the identity on the extended reals. -/
theorem narrow_id {S : Shape} (x : FVec Ideal S .f32) (h : FTy.bf16.bits < FTy.f32.bits) : (truncf .bf16 x h : FVec Ideal S .bf16) = x :=
  funext fun i => truncf_apply x h i

theorem pooled_in (c : Dev nD) : (V m c main_v8 : S16384x512.Idx → EReal) = pooled (m ((c : Thread nD τ).loc main_arg0)) (m ((c : Thread nD τ).loc main_arg1)) := by
  refine Eq.trans ?_ (narrow_id (pooled (m ((c : Thread nD τ).loc main_arg0)) (m ((c : Thread nD τ).loc main_arg1))) bitsLt_bf16_f32)
  dsimp only [Gen.V, Gen.hostOps0]; after_results; unfold pooled; rfl
theorem weight0_in (c : Dev nD) : (V m c main_v9 : S512x1024.Idx → EReal) = (m ((c : Thread nD τ).loc main_arg2)) := by
  refine Eq.trans ?_ (narrow_id ((m ((c : Thread nD τ).loc main_arg2)) : S512x1024.Idx → EReal) bitsLt_bf16_f32)
  dsimp only [Gen.V, Gen.hostOps0]; after_results
theorem weight1_in (c : Dev nD) : (V m c main_v10 : S1024x1024.Idx → EReal) = (m ((c : Thread nD τ).loc main_arg4)) := by
  refine Eq.trans ?_ (narrow_id ((m ((c : Thread nD τ).loc main_arg4)) : S1024x1024.Idx → EReal) bitsLt_bf16_f32)
  dsimp only [Gen.V, Gen.hostOps0]; after_results
theorem weight2_in (c : Dev nD) : (V m c main_v11 : S1024x1024.Idx → EReal) = (m ((c : Thread nD τ).loc main_arg6)) := by
  refine Eq.trans ?_ (narrow_id ((m ((c : Thread nD τ).loc main_arg6)) : S1024x1024.Idx → EReal) bitsLt_bf16_f32)
  dsimp only [Gen.V, Gen.hostOps0]; after_results
theorem bias0_in (c : Dev nD) : (V m c main_v12 : S1x1024.Idx → EReal) = shapeCast S1x1024 ((m ((c : Thread nD τ).loc main_arg3)) : S1024.Idx → EReal) shapeCasts_S1024_S1x1024 := by
  dsimp only [Gen.V, Gen.hostOps0]; after_results; rfl
theorem bias1_in (c : Dev nD) : (V m c main_v13 : S1x1024.Idx → EReal) = shapeCast S1x1024 ((m ((c : Thread nD τ).loc main_arg5)) : S1024.Idx → EReal) shapeCasts_S1024_S1x1024 := by
  dsimp only [Gen.V, Gen.hostOps0]; after_results; rfl
theorem bias2_in (c : Dev nD) : (V m c main_v14 : S1x1024.Idx → EReal) = shapeCast S1x1024 ((m ((c : Thread nD τ).loc main_arg7)) : S1024.Idx → EReal) shapeCasts_S1024_S1x1024 := by
  dsimp only [Gen.V, Gen.hostOps0]; after_results; rfl

/-! ## Which block each window holds at a grid point -/

theorem hz : (![0, 0] : Fin 2 → Nat) = fun _ => 0 := funext fun a => by fin_cases a <;> rfl

/-- The printed index maps over the 32 grid points: the batch and the result move one row block per point, every
    weight and bias stays at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of the batch tile at point `t` is row `512 t + p` of the pooled batch. -/
theorem tile_row (c : Dev nD) (t : Fin cfg0.N) (p : Fin 512) (r : Fin 16384) (hr : r.val = 512 * t.val + p.val) (k : Fin 512) :
    (iblk m c 0 t : S512x512.Idx → EReal) (ix2 p k) = pooled (m ((c : Thread nD τ).loc main_arg0)) (m ((c : Thread nD τ).loc main_arg1)) (ix2 r k) := by
  obtain ⟨e0, e1, -⟩ := idx_facts t
  unfold iblk
  rw [View.read_apply, cast_eq]
  show V m c main_v8 _ = _
  rw [pooled_in]
  refine congrArg _ (funext fun a => Fin.ext ?_)
  match a with
  | ⟨0, _⟩ => show win0_0.index t (0 : Fin 2) * 512 + 1 * p.val = r.val; omega
  | ⟨1, _⟩ => show win0_0.index t (1 : Fin 2) * 512 + 1 * k.val = k.val; omega

/-- A weight window's block is the whole weight matrix, at every point. -/
theorem weight0_block (c : Dev nD) (t : Fin cfg0.N) : (iblk m c 1 t : S512x1024.Idx → EReal) = (m ((c : Thread nD τ).loc main_arg2)) := by
  obtain ⟨-, -, e0, e1, -⟩ := idx_facts t
  funext y
  unfold iblk
  rw [View.read_apply, cast_eq]
  show V m c main_v9 _ = _
  rw [weight0_in]
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 1024 + 1 * (y 1).val = (y 1).val; omega
theorem weight1_block (c : Dev nD) (t : Fin cfg0.N) : (iblk m c 3 t : S1024x1024.Idx → EReal) = (m ((c : Thread nD τ).loc main_arg4)) := by
  obtain ⟨-, -, -, -, -, -, e0, e1, -⟩ := idx_facts t
  funext y
  unfold iblk
  rw [View.read_apply, cast_eq]
  show V m c main_v10 _ = _
  rw [weight1_in]
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 1024 + 1 * (y 1).val = (y 1).val; omega
theorem weight2_block (c : Dev nD) (t : Fin cfg0.N) : (iblk m c 5 t : S1024x1024.Idx → EReal) = (m ((c : Thread nD τ).loc main_arg6)) := by
  obtain ⟨-, -, -, -, -, -, -, -, -, -, e0, e1, -⟩ := idx_facts t
  funext y
  unfold iblk
  rw [View.read_apply, cast_eq]
  show V m c main_v11 _ = _
  rw [weight2_in]
  refine congrArg _ (funext fun a => Fin.ext ?_)
  match a with
  | ⟨0, _⟩ => show win0_5.index t (0 : Fin 2) * 1024 + 1 * (y 0).val = (y 0).val; omega
  | ⟨1, _⟩ => show win0_5.index t (1 : Fin 2) * 1024 + 1 * (y 1).val = (y 1).val; omega

/-- A bias window's block, read as a vector, is the bias vector, at every point. -/
theorem bias0_block (c : Dev nD) (t : Fin cfg0.N) : rowVec (iblk m c 2 t : S1x1024.Idx → EReal) = ((m ((c : Thread nD τ).loc main_arg3)) : S1024.Idx → EReal) := by
  obtain ⟨-, -, -, -, e0, e1, -⟩ := idx_facts t
  funext i
  obtain ⟨q, rfl⟩ : ∃ q : Fin 1024, i = ix1 q := ⟨i 0, eq_ix1 i⟩
  rw [rowVec_ix1]
  unfold iblk
  rw [View.read_apply, cast_eq]
  show V m c main_v12 _ = _
  rw [bias0_in]
  refine (congrArg _ (funext fun a => Fin.ext ?_)).trans (shapeCast_a_1a_apply _ shapeCasts_S1024_S1x1024 (0 : Fin 1) q)
  match a with
  | ⟨0, _⟩ => show win0_2.index t (0 : Fin 2) * 1 + 1 * 0 = 0; omega
  | ⟨1, _⟩ => show win0_2.index t (1 : Fin 2) * 1024 + 1 * q.val = q.val; omega
theorem bias1_block (c : Dev nD) (t : Fin cfg0.N) : rowVec (iblk m c 4 t : S1x1024.Idx → EReal) = ((m ((c : Thread nD τ).loc main_arg5)) : S1024.Idx → EReal) := by
  obtain ⟨-, -, -, -, -, -, -, -, e0, e1, -⟩ := idx_facts t
  funext i
  obtain ⟨q, rfl⟩ : ∃ q : Fin 1024, i = ix1 q := ⟨i 0, eq_ix1 i⟩
  rw [rowVec_ix1]
  unfold iblk
  rw [View.read_apply, cast_eq]
  show V m c main_v13 _ = _
  rw [bias1_in]
  refine (congrArg _ (funext fun a => Fin.ext ?_)).trans (shapeCast_a_1a_apply _ shapeCasts_S1024_S1x1024 (0 : Fin 1) q)
  match a with
  | ⟨0, _⟩ => show win0_4.index t (0 : Fin 2) * 1 + 1 * 0 = 0; omega
  | ⟨1, _⟩ => show win0_4.index t (1 : Fin 2) * 1024 + 1 * q.val = q.val; omega
theorem bias2_block (c : Dev nD) (t : Fin cfg0.N) : rowVec (iblk m c 6 t : S1x1024.Idx → EReal) = ((m ((c : Thread nD τ).loc main_arg7)) : S1024.Idx → EReal) := by
  obtain ⟨-, -, -, -, -, -, -, -, -, -, -, -, e0, e1, -⟩ := idx_facts t
  funext i
  obtain ⟨q, rfl⟩ : ∃ q : Fin 1024, i = ix1 q := ⟨i 0, eq_ix1 i⟩
  rw [rowVec_ix1]
  unfold iblk
  rw [View.read_apply, cast_eq]
  show V m c main_v14 _ = _
  rw [bias2_in]
  refine (congrArg _ (funext fun a => Fin.ext ?_)).trans (shapeCast_a_1a_apply _ shapeCasts_S1024_S1x1024 (0 : Fin 1) q)
  match a with
  | ⟨0, _⟩ => show win0_6.index t (0 : Fin 2) * 1 + 1 * 0 = 0; omega
  | ⟨1, _⟩ => show win0_6.index t (1 : Fin 2) * 1024 + 1 * q.val = q.val; omega

/-- Point `t` writes back rows `512 t … 512 t + 511` of the perceptron of the whole batch. -/
theorem flushed_eq (c : Dev nD) (t : Fin cfg0.N) :
    (dats m 0 c).flushed 7 t = ((cfg0.win 7).blk t).view.read (Elt Ideal) (out m c) := by
  rw [Value.flushed7]
  unfold out0_7
  rw [View.canon_unit_zero hz]
  simp only [View.ld_unit_zero (S := S512x512) hz, View.ld_unit_zero (S := S512x1024) hz, View.ld_unit_zero (S := S1x1024) hz,
    View.ld_unit_zero (S := S1024x1024) hz]
  funext j
  obtain ⟨p, q, rfl⟩ : ∃ (p : Fin 512) (q : Fin 1024), j = ix2 p q := ⟨j 0, j 1, eq_ix2 j⟩
  rw [View.read_apply, cast_eq]
  have hx : (win0 7).xinj (grid0.coords t) (ix2 p q) = ix2 p q :=
    funext fun a => Fin.ext (by match a with | ⟨0, _⟩ => rfl | ⟨1, _⟩ => rfl)
  have ht : t.val < 32 := lt_of_lt_of_eq t.isLt N_0
  have hp : p.val < 512 := p.isLt
  obtain ⟨-, -, -, -, -, -, -, -, -, -, -, -, -, -, e0, e1⟩ := idx_facts t
  have hemb : ((View.whole main_v15).slice ((win0 7).rect t)).emb (ix2 p q) = ix2 (⟨512 * t.val + p.val, by omega⟩ : Fin 16384) q :=
    funext fun a => Fin.ext (by
      match a with
      | ⟨0, _⟩ => show win0_7.index t (0 : Fin 2) * 512 + 1 * p.val = 512 * t.val + p.val; omega
      | ⟨1, _⟩ => show win0_7.index t (1 : Fin 2) * 1024 + 1 * q.val = q.val; omega)
  rw [hemb]
  refine Eq.trans (congrArg (k0_pay1 (iblk m c 0 t) (iblk m c 1 t) (iblk m c 2 t) (iblk m c 3 t) (iblk m c 4 t) (iblk m c 5 t) (iblk m c 6 t)) hx) ?_
  unfold out
  exact tile_entry (pooled (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (iblk m c 0 t) (iblk m c 1 t) (iblk m c 2 t) (iblk m c 3 t) (iblk m c 4 t) (iblk m c 5 t) (iblk m c 6 t)
    p (⟨512 * t.val + p.val, by omega⟩ : Fin 16384) q (tile_row m c t p (⟨512 * t.val + p.val, by omega⟩ : Fin 16384) rfl)
    (weight0_block m c t) (bias0_block m c t) (weight1_block m c t) (bias1_block m c t) (weight2_block m c t) (bias2_block m c t)

/-- An index of the result array is in point `t`'s block iff each coordinate is in the block's range on its axis. -/
theorem mem_blk (t : Fin cfg0.N) (i : S16384x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v15).slice (win0_7.rect t)).set ↔ _
  rw [View.set_slice_whole, Rect.mem_set_unit]
  exact Iff.rfl

/-- Every row of the result is in the block of the point that owns it: row `r` belongs to point `r / 512`. -/
theorem covered (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  have hN : cfg0.N = 32 := N_0
  refine ⟨⟨(i 0).val / 512, by rw [hN]; omega⟩, flush0_7 _, ?_⟩
  obtain ⟨-, -, -, -, -, -, -, -, -, -, -, -, -, -, e0, e1⟩ := idx_facts ⟨(i 0).val / 512, by rw [hN]; omega⟩
  rw [mem_blk]
  intro a
  match a with
  | ⟨0, _⟩ =>
    show win0_7.index _ (0 : Fin 2) * 512 ≤ (i 0).val ∧ (i 0).val < win0_7.index _ (0 : Fin 2) * 512 + 512
    rw [e0]; show (i 0).val / 512 * 512 ≤ (i 0).val ∧ (i 0).val < (i 0).val / 512 * 512 + 512; omega
  | ⟨1, _⟩ =>
    show win0_7.index _ (1 : Fin 2) * 1024 ≤ (i 1).val ∧ (i 1).val < win0_7.index _ (1 : Fin 2) * 1024 + 1024
    rw [e1]; omega

/-- So the result array ends holding the perceptron of the whole pooled batch. -/
theorem final (c : Dev nD) : (dats m 0 c).arrAt 7 cfg0.N = out m c :=
  (dats m 0 c).arrAt_eq_of_cover 7 (out m c) (fun t _ => flushed_eq m c t) covered

/-- The kernel's run: the result at the perceptron of the pooled batch, the arguments unchanged. -/
theorem run : θ_run defs (onTc (τ := τ) (main (F := Ideal))) ⟨m, fun _ => 0, ρ⟩ fun r => ∀ c : Dev nD,
      r.2.mem ((c : Thread nD τ).loc main_v15) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.RefValue.lean ====
/-
  The reference, read as three dense-rectifier layers.

  After pooling (each route's rows gathered from the table and maximised over the route's positions), the reference
  applies `relu (h · W + b)` three times with host operations: a contraction of the second axis of `h` against the first
  of `W`, the bias broadcast along the rows, a maximum against a zero splat. Entry `(p, q)` of each stage is therefore
  `max (∑ₖ h(p, k) · W(k, q) + b(q)) 0`.
-/
import proofs.«145293_j71940702208695_1_alg».proof.Proof.Gen.ReferenceIdeal.Read
import proofs.«145293_j71940702208695_1_alg».proof.Proof.LibDenseRelu

noncomputable section

namespace Cert.ReferenceIdeal.Layers

open Cert.ReferenceIdeal Cert.ReferenceIdeal.Read Idealize.ShloMosaic Idealize.ShloMosaic.ValueIdx Idealize.ShloMosaic.DenseRelu

variable (x0 : (⟨S100000x512, .f32⟩ : BufTy).Contents (Elt Ideal)) (x1 : (⟨S16384x32, .i32⟩ : BufTy).Contents (Elt Ideal))
  (x2 : (⟨S512x1024, .f32⟩ : BufTy).Contents (Elt Ideal)) (x3 : (⟨S1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x1024, .f32⟩ : BufTy).Contents (Elt Ideal)) (x7 : (⟨S1024, .f32⟩ : BufTy).Contents (Elt Ideal))

/-- Where the bias is read: entry `(p, q)` of the broadcast bias is the bias at `q`. -/
theorem bias_idx (p : Fin 16384) (q : Fin 1024) : idx_main_v9 (idx_main_v10 (ix2 p q)) = ix1 q :=
  funext fun a => Fin.ext (by match a with | ⟨0, _⟩ => rfl)

/-- The first stage is the dense-rectifier layer of the pooled embeddings. -/
theorem stage1 : val_main_v12 (F := Ideal) x0 x1 x2 x3 = layer (val_main_v7 (F := Ideal) x0 x1) x2 x3 := by
  funext i
  obtain ⟨p, q, rfl⟩ : ∃ (p : Fin 16384) (q : Fin 1024), i = ix2 p q := ⟨i 0, i 1, eq_ix2 i⟩
  have hl : ∀ k : Fin 512, lidx_main_v8 (ix2 p q) k = ix2 p k := fun k =>
    funext fun a => Fin.ext (by match a with | ⟨0, _⟩ => rfl | ⟨1, _⟩ => rfl)
  have hr : ∀ k : Fin 512, ridx_main_v8 (ix2 p q) k = ix2 k q := fun k =>
    funext fun a => Fin.ext (by match a with | ⟨0, _⟩ => rfl | ⟨1, _⟩ => rfl)
  rw [val_main_v12_apply, val_main_v11_apply, val_main_v8_apply, val_main_v10_apply, val_main_v9_apply,
    val_main_call0_v0_apply, val_main_call0_cst_apply, bias_idx]
  simp only [hl, hr, Ideal.maximumf_def, Ideal.addf_def, Ideal.ofBits_def, Ideal.ofBits_zero_f32]
  rfl

/-- The second stage is the layer of the first. -/
theorem stage2 : val_main_v17 (F := Ideal) x0 x1 x2 x3 x4 x5 = layer (val_main_v12 (F := Ideal) x0 x1 x2 x3) x4 x5 := by
  funext i
  obtain ⟨p, q, rfl⟩ : ∃ (p : Fin 16384) (q : Fin 1024), i = ix2 p q := ⟨i 0, i 1, eq_ix2 i⟩
  have hl : ∀ k : Fin 1024, lidx_main_v13 (ix2 p q) k = ix2 p k := fun k =>
    funext fun a => Fin.ext (by match a with | ⟨0, _⟩ => rfl | ⟨1, _⟩ => rfl)
  have hr : ∀ k : Fin 1024, ridx_main_v13 (ix2 p q) k = ix2 k q := fun k =>
    funext fun a => Fin.ext (by match a with | ⟨0, _⟩ => rfl | ⟨1, _⟩ => rfl)
  have hb : idx_main_v14 (idx_main_v15 (ix2 p q)) = ix1 q :=
    funext fun a => Fin.ext (by match a with | ⟨0, _⟩ => rfl)
  rw [val_main_v17_apply, val_main_v16_apply, val_main_v13_apply, val_main_v15_apply, val_main_v14_apply,
    val_main_call1_v0_apply, val_main_call1_cst_apply, hb]
  simp only [hl, hr, Ideal.maximumf_def, Ideal.addf_def, Ideal.ofBits_def, Ideal.ofBits_zero_f32]
  rfl

/-- The third stage, the result, is the layer of the second. -/
theorem stage3 : val_main_v22 (F := Ideal) x0 x1 x2 x3 x4 x5 x6 x7 = layer (val_main_v17 (F := Ideal) x0 x1 x2 x3 x4 x5) x6 x7 := by
  funext i
  obtain ⟨p, q, rfl⟩ : ∃ (p : Fin 16384) (q : Fin 1024), i = ix2 p q := ⟨i 0, i 1, eq_ix2 i⟩
  have hl : ∀ k : Fin 1024, lidx_main_v18 (ix2 p q) k = ix2 p k := fun k =>
    funext fun a => Fin.ext (by match a with | ⟨0, _⟩ => rfl | ⟨1, _⟩ => rfl)
  have hr : ∀ k : Fin 1024, ridx_main_v18 (ix2 p q) k = ix2 k q := fun k =>
    funext fun a => Fin.ext (by match a with | ⟨0, _⟩ => rfl | ⟨1, _⟩ => rfl)
  have hb : idx_main_v19 (idx_main_v20 (ix2 p q)) = ix1 q :=
    funext fun a => Fin.ext (by match a with | ⟨0, _⟩ => rfl)
  rw [val_main_v22_apply, val_main_v21_apply, val_main_v18_apply, val_main_v20_apply, val_main_v19_apply,
    val_main_call2_v0_apply, val_main_call2_cst_apply, hb]
  simp only [hl, hr, Ideal.maximumf_def, Ideal.addf_def, Ideal.ofBits_def, Ideal.ofBits_zero_f32]
  rfl

/-- The reference's result: the three-layer perceptron of the pooled embeddings. -/
theorem result_eq : val_main_v22 (F := Ideal) x0 x1 x2 x3 x4 x5 x6 x7
    = layer (layer (layer (val_main_v7 (F := Ideal) x0 x1) x2 x3) x4 x5) x6 x7 := by
  rw [stage3, stage2, stage1]

end Cert.ReferenceIdeal.Layers

end
-- ==== Proof.lean ====
/-
  A route encoder: a three-layer perceptron on pooled route embeddings, tiled over the routes, against the
  perceptron of the whole batch.

  Both programs first pool the routes on the host with the same operations: each route's 32 node indices (a negative
  one wrapped by the table's height) gather 32 rows of the embedding table, and the rows are maximised position by
  position, giving a `[16384, 512]` batch `X`. The reference then computes
      relu (relu (relu (X · W0 + b0) · W1 + b1) · W2 + b2)
  with three contractions over whole arrays. The kernel narrows `X` and the weights to the matrix unit's format (the
  identity on the extended reals), and at each of 32 grid points computes the same three layers on 512 rows of `X`,
  each matrix product accumulated into a zero splat, writing 512 rows of the result.

  On the extended reals both are the same function of the arguments, entry by entry: an entry of a layer is
  `max (∑ₖ h(p, k) · W(k, q) + b(q)) 0`, a sum over the same terms whichever program forms it, and it reads row `p`
  of the layer before it only — so the rows a grid point computes are the rows of the perceptron of the whole batch, and
  the 32 row blocks tile the result. No law of arithmetic beyond that is used, so the inputs' finiteness is never
  opened. The ideal pass rewrote nothing, so the kernel's idealization claim is trivial.

  The three frames are the generated ones (the reference's is its generated run with the result dropped).
-/
import proofs.«145293_j71940702208695_1_alg».proof.Defs
import proofs.«145293_j71940702208695_1_alg».proof.Proof.Gen.Kernel
import proofs.«145293_j71940702208695_1_alg».proof.Proof.Gen.Kernel.Frame
import proofs.«145293_j71940702208695_1_alg».proof.Proof.Gen.KernelIdeal
import proofs.«145293_j71940702208695_1_alg».proof.Proof.Gen.KernelIdeal.Frame
import proofs.«145293_j71940702208695_1_alg».proof.Proof.Gen.KernelIdeal.Value
import proofs.«145293_j71940702208695_1_alg».proof.Proof.Gen.ReferenceIdeal
import proofs.«145293_j71940702208695_1_alg».proof.Proof.Gen.ReferenceIdeal.Run
import proofs.«145293_j71940702208695_1_alg».proof.Proof.Gen.ReferenceIdeal.Read
import proofs.«145293_j71940702208695_1_alg».proof.Proof.Gen.Pre_finite_inputs
import proofs.«145293_j71940702208695_1_alg».proof.Proof.KernelValue
import proofs.«145293_j71940702208695_1_alg».proof.Proof.RefValue

noncomputable section

namespace Cert.Proof

open Idealize.ShloMosaic Idealize.ShloMosaic.TcCoe Idealize.SL.Sem

/-- The two programs pool the routes with one and the same chain of host operations. -/
theorem pooled_same (a0 : (⟨Cert.KernelIdeal.S100000x512, .f32⟩ : BufTy).Contents (Elt Ideal))
    (a1 : (⟨Cert.KernelIdeal.S16384x32, .i32⟩ : BufTy).Contents (Elt Ideal)) :
    Cert.ReferenceIdeal.Read.val_main_v7 (F := Ideal) a0 a1 = Cert.KernelIdeal.Whole.pooled a0 a1 := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- From memories that agree on the arguments, the kernel's result array ends at the perceptron of the pooled batch
    (its row blocks, tiled) and the reference's at its three host layers of the same batch: one function. -/
theorem algebraic : Cert.algebraic_KernelIdeal_ReferenceIdeal := by
  intro m ρ m' ρ' _ hagree
  refine ⟨fun c => Cert.KernelIdeal.Whole.out m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [e0, e1, e2, e3, e4, e5, e6, e7, Cert.ReferenceIdeal.Read.val_main_v22_eq, Cert.ReferenceIdeal.Layers.result_eq,
    pooled_same]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
